-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x1024x64 : Shape := ⟨4, ![8, 16, 1024, 64]⟩
abbrev S_ : Shape := ⟨0, ![]⟩

class Facts : Prop where
  bcast_S_S8x16x1024x64 : S_.BroadcastsInDim S8x16x1024x64 (![] : Fin 0 → Fin S8x16x1024x64.rank)
  reducesTo_S8x16x1024x64_S_d0_1_2_3 : S8x16x1024x64.ReducesTo [0, 1, 2, 3] S_
  h_S_ : 0 < S_.numel

variable [Facts]

def fn {F : FTy → Type} [FloatOps F] (main_arg0 : FVec F S8x16x1024x64 .f32) (main_arg1 : FVec F S8x16x1024x64 .f32) (main_arg2 : FVec F S8x16x1024x64 .f32) : IVec S_ 1 :=
  let main_v0 : FVec F S8x16x1024x64 .f32 := Host.absf main_arg0
  let main_cst : FVec F S_ .f32 := constant S_ .f32 0x7F800000#32
  let main_v1 : FVec F S8x16x1024x64 .f32 := broadcastInDim S8x16x1024x64 ![] bcast_S_S8x16x1024x64 main_cst
  let main_v2 : IVec S8x16x1024x64 1 := cmpf .olt main_v0 main_v1
  let main_c : IVec S_ 1 := constantI S_ 1 1#1
  let main_v3 : IVec S_ 1 := (fun x v => Host.reduce IntOp.andi x v reducesTo_S8x16x1024x64_S_d0_1_2_3 h_S_) main_v2 main_c
  let main_v4 : FVec F S8x16x1024x64 .f32 := Host.absf main_arg1
  let main_cst_0 : FVec F S_ .f32 := constant S_ .f32 0x7F800000#32
  let main_v5 : FVec F S8x16x1024x64 .f32 := broadcastInDim S8x16x1024x64 ![] bcast_S_S8x16x1024x64 main_cst_0
  let main_v6 : IVec S8x16x1024x64 1 := cmpf .olt main_v4 main_v5
  let main_c_1 : IVec S_ 1 := constantI S_ 1 1#1
  let main_v7 : IVec S_ 1 := (fun x v => Host.reduce IntOp.andi x v reducesTo_S8x16x1024x64_S_d0_1_2_3 h_S_) main_v6 main_c_1
  let main_v8 : IVec S_ 1 := andi main_v3 main_v7
  let main_v9 : FVec F S8x16x1024x64 .f32 := Host.absf main_arg2
  let main_cst_2 : FVec F S_ .f32 := constant S_ .f32 0x7F800000#32
  let main_v10 : FVec F S8x16x1024x64 .f32 := broadcastInDim S8x16x1024x64 ![] bcast_S_S8x16x1024x64 main_cst_2
  let main_v11 : IVec S8x16x1024x64 1 := cmpf .olt main_v9 main_v10
  let main_c_3 : IVec S_ 1 := constantI S_ 1 1#1
  let main_v12 : IVec S_ 1 := (fun x v => Host.reduce IntOp.andi x v reducesTo_S8x16x1024x64_S_d0_1_2_3 h_S_) main_v11 main_c_3
  let main_v13 : IVec S_ 1 := andi main_v8 main_v12
  main_v13
-- ==== Kernel.lean ====
abbrev S8x16x1024x64 : Shape := ⟨4, ![8, 16, 1024, 64]⟩
abbrev S8x16x1024x1024 : Shape := ⟨4, ![8, 16, 1024, 1024]⟩
abbrev S1x1x1024x64 : Shape := ⟨4, ![1, 1, 1024, 64]⟩
abbrev S1x1x1024x1024 : Shape := ⟨4, ![1, 1, 1024, 1024]⟩
abbrev S1024x64 : Shape := ⟨2, ![1024, 64]⟩
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S8x16x1024x64, .f32⟩
  | .hbm, ⟨1, _⟩ => ⟨S8x16x1024x64, .f32⟩
  | .hbm, ⟨2, _⟩ => ⟨S8x16x1024x64, .f32⟩
  | .hbm, ⟨3, _⟩ => ⟨S8x16x1024x64, .f32⟩
  | .hbm, ⟨4, _⟩ => ⟨S8x16x1024x1024, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x1024x64, .f32⟩
  | .local _ .vmem, ⟨3, _⟩ => ⟨S1x1x1024x64, .f32⟩
  | .local _ .vmem, ⟨4, _⟩ => ⟨S1x1x1024x64, .f32⟩
  | .local _ .vmem, ⟨5, _⟩ => ⟨S1x1x1024x64, .f32⟩
  | .local _ .vmem, ⟨6, _⟩ => ⟨S1x1x1024x64, .f32⟩
  | .local _ .vmem, ⟨7, _⟩ => ⟨S1x1x1024x64, .f32⟩
  | .local _ .vmem, ⟨8, _⟩ => ⟨S1x1x1024x1024, .f32⟩
  | .local _ .vmem, ⟨9, _⟩ => ⟨S1x1x1024x1024, .f32⟩
  | _, _ => ⟨S8x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  bitsLt_bf16_f32 : FTy.bits .bf16 < FTy.bits .f32
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  shapeCasts_S1024x1024_S1x1x1024x1024 : S1024x1024.ShapeCasts S1x1x1024x1024
  shapeCasts_S1024x64_S1x1x1024x64 : S1024x64.ShapeCasts S1x1x1024x64
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S8x16x1024x64.size a
  hwx0_0 : ∀ i : grid0.Coords, EltTy.bits .f32 = 32 ∨ (Rect.block (s := S8x16x1024x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x64.size a ≤ S8x16x1024x64.size a
  hwx0_1 : ∀ i : grid0.Coords, EltTy.bits .f32 = 32 ∨ (Rect.block (s := S8x16x1024x64) S1x1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x64.size a ≤ S8x16x1024x64.size a
  hwx0_2 : ∀ i : grid0.Coords, EltTy.bits .f32 = 32 ∨ (Rect.block (s := S8x16x1024x64) S1x1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024x64.size a ≤ S8x16x1024x64.size a
  hwx0_3 : ∀ i : grid0.Coords, EltTy.bits .f32 = 32 ∨ (Rect.block (s := S8x16x1024x64) S1x1x1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x1024.size a ≤ S8x16x1024x1024.size a
  hwx0_4 : ∀ i : grid0.Coords, EltTy.bits .f32 = 32 ∨ (Rect.block (s := S8x16x1024x1024) S1x1x1024x1024.size (cc0_transform_4 i) (hinb0_4 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x16x1024x64 : Shape := ⟨4, ![8, 16, 1024, 64]⟩
abbrev S_ : Shape := ⟨0, ![]⟩
abbrev S8x16x1024x1024 : Shape := ⟨4, ![8, 16, 1024, 1024]⟩
abbrev S8x16x1024 : Shape := ⟨3, ![8, 16, 1024]⟩
abbrev S8x16x1024x1 : Shape := ⟨4, ![8, 16, 1024, 1]⟩

abbrev nBuf : Space → Nat
  | .hbm => 22
  | .vmem => 0
  | .smem => 0
  | _ => 0

abbrev bufTy : (tb : Table) → Fin (tcTables nBuf tb) → BufTy
  | .hbm, ⟨0, _⟩ => ⟨S8x16x1024x64, .f32⟩
  | .hbm, ⟨1, _⟩ => ⟨S8x16x1024x64, .f32⟩
  | .hbm, ⟨2, _⟩ => ⟨S8x16x1024x64, .f32⟩
  | .hbm, ⟨3, _⟩ => ⟨S_, .f32⟩
  | .hbm, ⟨4, _⟩ => ⟨S8x16x1024x64, .f32⟩
  | .hbm, ⟨5, _⟩ => ⟨S8x16x1024x64, .f32⟩
  | .hbm, ⟨6, _⟩ => ⟨S8x16x1024x1024, .f32⟩
  | .hbm, ⟨7, _⟩ => ⟨S_, .f32⟩
  | .hbm, ⟨8, _⟩ => ⟨S8x16x1024, .f32⟩
  | .hbm, ⟨9, _⟩ => ⟨S_, .f32⟩
  | .hbm, ⟨10, _⟩ => ⟨S8x16x1024, .f32⟩
  | .hbm, ⟨11, _⟩ => ⟨S8x16x1024, .f32⟩
  | .hbm, ⟨12, _⟩ => ⟨S8x16x1024x1, .f32⟩
  | .hbm, ⟨13, _⟩ => ⟨S8x16x1024x1024, .f32⟩
  | .hbm, ⟨14, _⟩ => ⟨S8x16x1024x1024, .f32⟩
  | .hbm, ⟨15, _⟩ => ⟨S8x16x1024x1024, .f32⟩
  | .hbm, ⟨16, _⟩ => ⟨S_, .f32⟩
  | .hbm, ⟨17, _⟩ => ⟨S8x16x1024, .f32⟩
  | .hbm, ⟨18, _⟩ => ⟨S8x16x1024x1, .f32⟩
  | .hbm, ⟨19, _⟩ => ⟨S8x16x1024x1024, .f32⟩
  | .hbm, ⟨20, _⟩ => ⟨S8x16x1024x1024, .f32⟩
  | .hbm, ⟨21, _⟩ => ⟨S8x16x1024x64, .f32⟩
  | _, _ => ⟨S8x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S8x16x1024x64 : S_.BroadcastsInDim S8x16x1024x64 (![] : Fin 0 → Fin S8x16x1024x64.rank)
  reducesTo_S8x16x1024x1024_S8x16x1024_d3 : S8x16x1024x1024.ReducesTo [3] S8x16x1024
  h_S_ : 0 < S_.numel
  bcast_S_S8x16x1024 : S_.BroadcastsInDim S8x16x1024 (![] : Fin 0 → Fin S8x16x1024.rank)
  bcast_S8x16x1024_S8x16x1024x1_0_1_2 : S8x16x1024.BroadcastsInDim S8x16x1024x1 (![0, 1, 2] : Fin 3 → Fin S8x16x1024x1.rank)
  bcast_S8x16x1024x1_S8x16x1024x1024_0_1_2_3 : S8x16x1024x1.BroadcastsInDim S8x16x1024x1024 (![0, 1, 2, 3] : Fin 4 → Fin S8x16x1024x1024.rank)
  dot_S8x16x1024x64_S8x16x1024x64_S8x16x1024x1024_3_3_2_2_01_01_wf : DotDims.WF S8x16x1024x64 S8x16x1024x64 S8x16x1024x1024 [3] [3] [2] [2] [0, 1] [0, 1]
  dot_S8x16x1024x1024_S8x16x1024x64_S8x16x1024x64_3_2_2_3_01_01_wf : DotDims.WF S8x16x1024x1024 S8x16x1024x64 S8x16x1024x64 [3] [2] [2] [3] [0, 1] [0, 1]

variable [Facts₀]

def dot_S8x16x1024x64_S8x16x1024x64_S8x16x1024x1024_3_3_2_2_01_01 : DotDims S8x16x1024x64 S8x16x1024x64 S8x16x1024x1024 where
  lhsContracting := [3]
  rhsContracting := [3]
  lhsNonContracting := [2]
  rhsNonContracting := [2]
  lhsBatch := [0, 1]
  rhsBatch := [0, 1]
  wf := dot_S8x16x1024x64_S8x16x1024x64_S8x16x1024x1024_3_3_2_2_01_01_wf
def dot_S8x16x1024x1024_S8x16x1024x64_S8x16x1024x64_3_2_2_3_01_01 : DotDims S8x16x1024x1024 S8x16x1024x64 S8x16x1024x64 where
  lhsContracting := [3]
  rhsContracting := [2]
  lhsNonContracting := [2]
  rhsNonContracting := [3]
  lhsBatch := [0, 1]
  rhsBatch := [0, 1]
  wf := dot_S8x16x1024x1024_S8x16x1024x64_S8x16x1024x64_3_2_2_3_01_01_wf

class Facts : Prop extends Facts₀ where

variable [Facts]
-- ==== Proof.AttentionSpec.lean ====
/-
  Scaled dot-product attention of ONE head, on the extended reals, and the two result arrays by head.

  A head is three matrices of 1024 rows and 64 columns: queries `Qm`, keys `Km`, values `Vm`. With the scale
  `1/8` (the word `0x3E000000`) and `-∞` (the word `0xFF800000`), row `q` of the scores is

    score q k  = ∑ d, (Qm q d * 1/8) * Km k d                       the scaled query row against key row k

  and the softmax of a row `s` of 1024 scores is

    rowMaxOf s  = max (-∞) (the maximum over k of s k, from -∞)
    expoOf s k  = exp (s k - rowMaxOf s)
    denomOf s   = ∑ k, expoOf s k
    softmax s k = expoOf s k / denomOf s

  so that weight q k = softmax (score q) k and out q d = ∑ k, weight q k * Vm k d.

  The maximum over a row is kept as the fold of `max` from `-∞` over the 1024 columns: both programs compute it in
  that form, so it is never evaluated. The arrays are [8, 16, 1024, 64]; head (b, h) of an array `X` is the matrix
  `r d ↦ X (b, h, r, d)`. The weights of all heads form an [8, 16, 1024, 1024] array, the outputs an
  [8, 16, 1024, 64] one. Nothing here needs an entry to be finite: both programs apply the SAME operations in the
  same order, and differ only in how the sums are laid out.
-/
import Idealize.ShloMosaic.PureOps.Ideal
import Idealize.ShloMosaic.Lib.ValueIdx

noncomputable section

open scoped BigOperators

namespace Cert.Attention

open Idealize.ShloMosaic Idealize.ShloMosaic.ValueIdx

/-- A head's matrix: 1024 rows of 64 entries. -/
abbrev Mat := Fin 1024 → Fin 64 → EReal

/-- The scale 1/8, as the programs spell it. -/
def scale : EReal := Ideal.ofBits .f32 0x3E000000#32

/-- The value the row maximum starts from, as the programs spell it: -∞. -/
def negInf : EReal := Ideal.ofBits .f32 0xFF800000#32

/-- The scaled query row `q` against the key row `k`. -/
def score (Qm Km : Mat) (q k : Fin 1024) : EReal := ∑ d : Fin 64, (Qm q d * scale) * Km k d

/-- The maximum of a row of scores, folded from -∞ over the columns, then once more against -∞. -/
def rowMaxOf (s : Fin 1024 → EReal) : EReal := max negInf ((Finset.univ : Finset (Fin 1024)).fold max negInf s)

/-- The exponential of a score less its row's maximum. -/
def expoOf (s : Fin 1024 → EReal) (k : Fin 1024) : EReal := Ideal.exp (s k - rowMaxOf s)

/-- The sum of a row's exponentials. -/
def denomOf (s : Fin 1024 → EReal) : EReal := ∑ k : Fin 1024, expoOf s k

/-- The softmax of a row of scores, at column `k`. -/
def softmax (s : Fin 1024 → EReal) (k : Fin 1024) : EReal := Ideal.div (expoOf s k) (denomOf s)

/-- The softmax of row `q` of the scores at column `k`. -/
def weight (Qm Km : Mat) (q k : Fin 1024) : EReal := softmax (score Qm Km q) k

/-- Row `q` of the weights against column `d` of the values. -/
def out (Qm Km Vm : Mat) (q : Fin 1024) (d : Fin 64) : EReal := ∑ k : Fin 1024, weight Qm Km q k * Vm k d

/-- Head (b, h) of an [8, 16, 1024, 64] array. -/
def head (X : (⟨4, ![8, 16, 1024, 64]⟩ : Shape).Idx → EReal) (b : Fin 8) (h : Fin 16) : Mat :=
  fun r d => X (ix4 b h r d)

/-- The weights of every head: an [8, 16, 1024, 1024] array. -/
def weights (Q K : (⟨4, ![8, 16, 1024, 64]⟩ : Shape).Idx → EReal) : (⟨4, ![8, 16, 1024, 1024]⟩ : Shape).Idx → EReal :=
  fun i => weight (head Q (i 0) (i 1)) (head K (i 0) (i 1)) (i 2) (i 3)

/-- The outputs of every head: an [8, 16, 1024, 64] array. -/
def outputs (Q K V : (⟨4, ![8, 16, 1024, 64]⟩ : Shape).Idx → EReal) : (⟨4, ![8, 16, 1024, 64]⟩ : Shape).Idx → EReal :=
  fun i => out (head Q (i 0) (i 1)) (head K (i 0) (i 1)) (head V (i 0) (i 1)) (i 2) (i 3)

theorem weights_ix4 (Q K : (⟨4, ![8, 16, 1024, 64]⟩ : Shape).Idx → EReal) (b : Fin 8) (h : Fin 16) (q k : Fin 1024) :
    weights Q K (ix4 b h q k) = weight (head Q b h) (head K b h) q k := rfl

theorem outputs_ix4 (Q K V : (⟨4, ![8, 16, 1024, 64]⟩ : Shape).Idx → EReal) (b : Fin 8) (h : Fin 16) (q : Fin 1024)
    (d : Fin 64) : outputs Q K V (ix4 b h q d) = out (head Q b h) (head K b h) (head V b h) q d := rfl

end Cert.Attention

end
-- ==== Proof.LibColumn.lean ====
/-
  A vector laid out as a column and spread over lanes, read at an index: the two layout steps of a reduction that
  keeps its axis (a row sum or row maximum put back beside the rows it came from).

  * `shapeCast_a_a1_apply`: an `[a]` vector cast to the column `[a, 1]` reads, at `(p, u)`, its entry `p`;
  * `broadcastTo_a1_ab_apply`: a column `[a, 1]` broadcast to `[a, b]` reads, at `(p, c)`, the column's entry `p`.
  Both for any extents `a`, `b` and any element type.
-/
import Idealize.ShloMosaic.Lib.Pipeline.Value
import Idealize.ShloMosaic.Lib.ValueIdx

namespace Cert.LibColumn

open Idealize.ShloMosaic Idealize.ShloMosaic.ValueIdx

variable {α : Type}

/-- An `[a]` vector laid out as a column `[a, 1]` reads, at `(p, u)`, its entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `b` lanes reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.SoftmaxRows.lean ====
/-
  The softmax of a 1024 × 1024 block of scores as the kernel spells it, read at an entry.

  The kernel takes each row's maximum from -∞ (a reduction over the lane axis) and once more against -∞, lays the
  1024 maxima out as a column [1024, 1], spreads the column over the 1024 lanes, subtracts, exponentiates, sums each
  row, lays the sums out as a column, spreads it, and divides. Read at (q, k) that is `softmax` of row q at k:
  a [1024] vector laid out as a column reads, at (p, 0), its entry p; a column spread over the lanes reads, at (p, c),
  the column's entry p; a lane reduction at row q runs over the entries (q, k).
-/
import Idealize.ShloMosaic.Lib.Pipeline.Value
import Idealize.ShloMosaic.Lib.ValueIdx
import Idealize.ShloMosaic.PureOps.Ideal.Laws
import proofs.«124840_j42288247996695_1_alg».proof.Proof.AttentionSpec
import proofs.«124840_j42288247996695_1_alg».proof.Proof.LibColumn

noncomputable section

open scoped BigOperators

namespace Cert.Attention

open Idealize.ShloMosaic Idealize.ShloMosaic.ValueIdx Cert.LibColumn

/-! ## The chain on a block of scores -/

/-- A block of scores, the vector of a row's worth of values, and the column layout. -/
abbrev SS : Shape := ⟨2, ![1024, 1024]⟩
abbrev SR : Shape := ⟨1, ![1024]⟩
abbrev SC : Shape := ⟨2, ![1024, 1]⟩

variable (hred : SS.Reduces [1] SR) (hc : SR.ShapeCasts SC) (hb : SC.Broadcasts SS)

/-- The reduced index `q` with the lane `k` put back is `(q, k)`. -/
theorem lift_row (q k : Fin 1024) : hred.lift (ix1 q) k = ix2 q k :=
  funext fun a => Fin.ext (by match a with | ⟨0, _⟩ => rfl | ⟨1, _⟩ => rfl)

/-- The rows' maxima: the lane reduction from -∞, then once more against -∞. -/
def maxVec (S : FVec Ideal SS .f32) : FVec Ideal SR .f32 :=
  maximumf (broadcast SR (Scalar.ofBits (F := Ideal) .f32 0xFF800000#32))
    (multiReduction .maximumf [1] SR S 0xFF800000#32 hred (.inl rfl) rfl)

/-- The exponentials of the scores less their rows' maxima. -/
def expVec (S : FVec Ideal SS .f32) : FVec Ideal SS .f32 :=
  exp (subf S (broadcastTo SS (shapeCast SC (maxVec hred S) hc) hb))

/-- The rows' sums of exponentials. -/
def sumVec (S : FVec Ideal SS .f32) : FVec Ideal SR .f32 :=
  multiReduction .add [1] SR (expVec hred hc hb S) 0x00000000#32 hred (.inl rfl) rfl

/-- The quotient. -/
def softmaxVec (S : FVec Ideal SS .f32) : FVec Ideal SS .f32 :=
  divf (expVec hred hc hb S) (broadcastTo SS (shapeCast SC (sumVec hred hc hb S) hc) hb)

/-- A row's lane maximum from -∞ is the fold of max over the row's 1024 entries. -/
theorem red_max_apply (S : FVec Ideal SS .f32) (q : Fin 1024) :
    multiReduction .maximumf [1] SR S 0xFF800000#32 hred (.inl rfl) rfl (ix1 q)
      = (Finset.univ : Finset (Fin 1024)).fold max negInf fun k => S (ix2 q k) := by
  refine (Ideal.multiReduction_maximumf_single S 0xFF800000#32 hred (.inl rfl) rfl (ix1 q)).trans ?_
  have hf : (S ∘ hred.lift (ix1 q)) = fun k : Fin 1024 => S (ix2 q k) :=
    funext fun k => congrArg S (lift_row hred q k)
  rw [hf]
  rfl

/-- The rows' maxima at row q: `rowMaxOf` of the row. -/
theorem maxVec_apply (S : FVec Ideal SS .f32) (q : Fin 1024) :
    maxVec hred S (ix1 q) = rowMaxOf fun k => S (ix2 q k) := by
  unfold maxVec
  refine (maximumf_apply _ _ (ix1 q)).trans ?_
  rw [red_max_apply hred S q]
  rfl

/-- The exponential of a difference of two vectors, at an index. -/
theorem exp_subf_apply {s : Shape} (x y : FVec Ideal s .f32) (i : s.Idx) : exp (subf x y) i = Ideal.exp (x i - y i) := rfl

/-- The exponentials at (q, k): `expoOf` of row q at k. -/
theorem expVec_apply (S : FVec Ideal SS .f32) (q k : Fin 1024) :
    expVec hred hc hb S (ix2 q k) = expoOf (fun k' => S (ix2 q k')) k := by
  unfold expVec
  refine (exp_subf_apply _ _ (ix2 q k)).trans ?_
  rw [broadcastTo_a1_ab_apply, shapeCast_a_a1_apply, maxVec_apply]
  rfl

/-- The rows' sums at row q: `denomOf` of the row. -/
theorem sumVec_apply (S : FVec Ideal SS .f32) (q : Fin 1024) :
    sumVec hred hc hb S (ix1 q) = denomOf fun k => S (ix2 q k) := by
  unfold sumVec
  refine (Ideal.multiReduction_add_single (expVec hred hc hb S) 0x00000000#32 hred (.inl rfl) rfl (ix1 q)).trans ?_
  unfold denomOf
  refine Finset.sum_congr rfl fun k _ => ?_
  rw [lift_row hred q k]
  exact expVec_apply hred hc hb S q k

/-- THE BLOCK'S SOFTMAX at (q, k) is the softmax of row q at k. -/
theorem softmaxVec_apply (S : FVec Ideal SS .f32) (q k : Fin 1024) :
    softmaxVec hred hc hb S (ix2 q k) = softmax (fun k' => S (ix2 q k')) k := by
  unfold softmaxVec
  refine (divf_apply _ _ (ix2 q k)).trans ?_
  rw [broadcastTo_a1_ab_apply, shapeCast_a_a1_apply, sumVec_apply, expVec_apply]
  rfl

end Cert.Attention

end
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.KernelBlock.lean ====
/-
  What the kernel's body computes from one grid point's three blocks, read at an entry.

  A block is a [1, 1, 1024, 64] slab of an argument array: one head's matrix, `blk P r d = P (0, 0, r, d)`. The body
  drops the two unit axes, scales the query block by 1/8, multiplies it with the transposed key block into a zero
  accumulator (entry (q, k): the sum over the 64 columns of scaled query row q against key row k — the score), takes the
  softmax of each row of the 1024 × 1024 scores, stores it, and multiplies it with the value block into a zero
  accumulator. Changes of float format are the identity on the extended reals. So the stored weights at (q, k) are
  `weight` of the blocks' matrices, and the stored outputs at (q, d) are `out` of them.
-/
import proofs.«124840_j42288247996695_1_alg».proof.Proof.Gen.KernelIdeal.Skeleton
import proofs.«124840_j42288247996695_1_alg».proof.Proof.SoftmaxRows
import proofs.«124840_j42288247996695_1_alg».proof.Proof.LibBlock
import Idealize.ShloMosaic.Lib.ValueLayout

noncomputable section

open scoped BigOperators

namespace Cert.KernelIdeal.BlockValue

open Cert.KernelIdeal Cert.KernelIdeal.Gen Idealize.ShloMosaic Idealize.ShloMosaic.ValueIdx
open Cert.Attention

/-- A block's matrix: the block read at (0, 0, r, d). -/
def blk (P : Vec Ideal S1x1x1024x64 .f32) : Mat := fun r d => P (ix4 (0 : Fin 1) (0 : Fin 1) r d)

/-- A block with its two unit axes dropped reads, at (r, d), the block's matrix there. -/
theorem cast_blk (P : Vec Ideal S1x1x1024x64 .f32) (r : Fin 1024) (d : Fin 64) :
    shapeCast S1024x64 P shapeCasts_S1x1x1024x64_S1024x64 (ix2 r d) = blk P r d :=
  shapeCast_apply P shapeCasts_S1x1x1024x64_S1024x64 (ix2 r d) (ix4 (0 : Fin 1) (0 : Fin 1) r d) (by
    rw [Shape.rowMajor_val_four, Shape.rowMajor_val_two]
    show ((0 * 1 + 0) * 1024 + r.val) * 64 + d.val = r.val * 64 + d.val
    omega)

/-- The block of scores: the scaled query block times the transposed key block, into zeros. -/
def scoreVec (P0 P1 : Vec Ideal S1x1x1024x64 .f32) : FVec Ideal S1024x1024 .f32 :=
  matmul dot_S1024x64_S64x1024_S1024x1024_1_0_0_1_n_n none
    (truncf .bf16 (mulf (shapeCast S1024x64 P0 shapeCasts_S1x1x1024x64_S1024x64)
      (broadcast S1024x64 (Scalar.ofBits (F := Ideal) .f32 0x3E000000#32))) bitsLt_bf16_f32)
    (transpose S64x1024 [1, 0] (truncf .bf16 (shapeCast S1024x64 P1 shapeCasts_S1x1x1024x64_S1024x64) bitsLt_bf16_f32)
      transposes_S1024x64_p1_0_S64x1024)
    (constant (F := Ideal) S1024x1024 .f32 0x00000000#32)

/-- The scaled query block at (q, d). -/
theorem lhs_apply (P0 : Vec Ideal S1x1x1024x64 .f32) (q : Fin 1024) (d : Fin 64) :
    (truncf .bf16 (mulf (shapeCast S1024x64 P0 shapeCasts_S1x1x1024x64_S1024x64)
      (broadcast S1024x64 (Scalar.ofBits (F := Ideal) .f32 0x3E000000#32))) bitsLt_bf16_f32 : FVec Ideal S1024x64 .bf16) (ix2 q d)
      = blk P0 q d * scale := by
  refine (truncf_apply (ψ := .bf16) _ bitsLt_bf16_f32 (ix2 q d)).trans ?_
  refine (mulf_apply _ _ (ix2 q d)).trans ?_
  rw [cast_blk]
  rfl

/-- The transposed key block at (d, k). -/
theorem rhs_apply (P1 : Vec Ideal S1x1x1024x64 .f32) (d : Fin 64) (k : Fin 1024) :
    transpose S64x1024 [1, 0] (truncf .bf16 (shapeCast S1024x64 P1 shapeCasts_S1x1x1024x64_S1024x64) bitsLt_bf16_f32 : FVec Ideal S1024x64 .bf16)
      transposes_S1024x64_p1_0_S64x1024 (ix2 d k) = blk P1 k d := by
  refine (transpose_ix2_apply _ transposes_S1024x64_p1_0_S64x1024 d k).trans ?_
  refine (truncf_apply (ψ := .bf16) _ bitsLt_bf16_f32 (ix2 k d)).trans ?_
  exact cast_blk P1 k d

/-- THE SCORES at (q, k). -/
theorem scoreVec_apply (P0 P1 : Vec Ideal S1x1x1024x64 .f32) (q k : Fin 1024) :
    scoreVec P0 P1 (ix2 q k) = score (blk P0) (blk P1) q k := by
  unfold scoreVec
  refine (Cert.LibBlock.matmul_zero_ix2 dot_S1024x64_S64x1024_S1024x1024_1_0_0_1_n_n rfl rfl rfl rfl rfl rfl none _ _ q k).trans ?_
  unfold score
  refine Finset.sum_congr rfl fun d _ => ?_
  exact congrArg₂ (· * ·) (lhs_apply P0 q d) (rhs_apply P1 d k)

/-- The stored weights' payload is the softmax chain on the block of scores. -/
theorem pay2_eq (P0 P1 : Vec Ideal S1x1x1024x64 .f32) :
    k0_pay2 (F := Ideal) P0 P1
      = softmaxVec reduces_S1024x1024_S1024 shapeCasts_S1024_S1024x1 broadcasts_S1024x1_S1024x1024 (scoreVec P0 P1) := rfl

/-- THE WEIGHTS at (q, k). -/
theorem pay2_apply (P0 P1 : Vec Ideal S1x1x1024x64 .f32) (q k : Fin 1024) :
    k0_pay2 (F := Ideal) P0 P1 (ix2 q k) = weight (blk P0) (blk P1) q k := by
  rw [pay2_eq]
  refine (softmaxVec_apply _ _ _ (scoreVec P0 P1) q k).trans ?_
  have hrow : (fun k' => scoreVec P0 P1 (ix2 q k')) = score (blk P0) (blk P1) q :=
    funext fun k' => scoreVec_apply P0 P1 q k'
  rw [hrow]
  rfl

/-- The stored outputs' payload: the weights times the value block, into zeros. -/
theorem pay4_eq (P0 P1 P2 : Vec Ideal S1x1x1024x64 .f32) :
    k0_pay4 (F := Ideal) P0 P1 P2
      = matmul dot_S1024x1024_S1024x64_S1024x64_1_0_0_1_n_n none
          (truncf .bf16 (k0_pay2 (F := Ideal) P0 P1) bitsLt_bf16_f32)
          (truncf .bf16 (shapeCast S1024x64 P2 shapeCasts_S1x1x1024x64_S1024x64) bitsLt_bf16_f32)
          (constant (F := Ideal) S1024x64 .f32 0x00000000#32) := rfl

/-- THE OUTPUTS at (q, d). -/
theorem pay4_apply (P0 P1 P2 : Vec Ideal S1x1x1024x64 .f32) (q : Fin 1024) (d : Fin 64) :
    k0_pay4 (F := Ideal) P0 P1 P2 (ix2 q d) = out (blk P0) (blk P1) (blk P2) q d := by
  rw [pay4_eq]
  refine (Cert.LibBlock.matmul_zero_ix2 dot_S1024x1024_S1024x64_S1024x64_1_0_0_1_n_n rfl rfl rfl rfl rfl rfl none _ _ q d).trans ?_
  unfold out
  refine Finset.sum_congr rfl fun k _ => ?_
  refine congrArg₂ (· * ·) ?_ ?_
  · exact (truncf_apply (ψ := .bf16) _ bitsLt_bf16_f32 (ix2 q k)).trans (pay2_apply P0 P1 q k)
  · exact (truncf_apply (ψ := .bf16) _ bitsLt_bf16_f32 (ix2 k d)).trans (cast_blk P2 k d)

end Cert.KernelIdeal.BlockValue

end
-- ==== Proof.KernelArray.lean ====
/-
  From blocks to arrays: the kernel's two result arrays are the attention of each head.

  The grid is 8 × 16, one point per head. At the point of head (b, h) every window's block index is (b, h, 0, 0): the
  three input blocks are the head's query, key and value matrices, and the two blocks written back are the head's
  slabs of the outputs and of the weights. A block's entry (0, 0, r, d) sits in its array at (b, h, r, d). So what a
  point writes back is its block of the attention arrays, and since every index (b, h, r, d) lies in the block of the
  point of head (b, h), the written-back blocks cover both arrays.
-/
import proofs.«124840_j42288247996695_1_alg».proof.Proof.Gen.KernelIdeal.Value
import proofs.«124840_j42288247996695_1_alg».proof.Proof.KernelBlock

noncomputable section

open scoped BigOperators

namespace Cert.KernelIdeal.ArrayValue

open Cert.KernelIdeal Cert.KernelIdeal.Gen Cert.KernelIdeal.Value Cert.KernelIdeal.BlockValue
open Idealize.ShloMosaic Idealize.ShloMosaic.TcCoe Idealize.SL.Sem Idealize.ShloMosaic.ValueIdx
open Idealize.ShloMosaic.Pipeline (Dat)
open Cert.Attention

variable (m : (ℓ : Loc nD τ sig) → Buf (Elt Ideal) ℓ) (ρ : Dev nD → PrngReg)

/-- The zero offsets of a rank-4 rectangle are the constant function `0`. -/
theorem hz4 : (![0, 0, 0, 0] : Fin 4 → Nat) = fun _ => 0 := funext fun a => by fin_cases a <;> rfl

/-! ## The index maps, decided over the 128 points -/

/-- At every point all five windows have the block index (b, h, 0, 0) of one head, b < 8 and h < 16. -/
theorem idx_facts : ∀ t : Fin cfg0.N,
    (win0_0.index t (0 : Fin 4) = win0_3.index t (0 : Fin 4) ∧ win0_0.index t (1 : Fin 4) = win0_3.index t (1 : Fin 4)
      ∧ win0_0.index t (2 : Fin 4) = 0 ∧ win0_0.index t (3 : Fin 4) = 0)
    ∧ (win0_1.index t (0 : Fin 4) = win0_3.index t (0 : Fin 4) ∧ win0_1.index t (1 : Fin 4) = win0_3.index t (1 : Fin 4)
      ∧ win0_1.index t (2 : Fin 4) = 0 ∧ win0_1.index t (3 : Fin 4) = 0)
    ∧ (win0_2.index t (0 : Fin 4) = win0_3.index t (0 : Fin 4) ∧ win0_2.index t (1 : Fin 4) = win0_3.index t (1 : Fin 4)
      ∧ win0_2.index t (2 : Fin 4) = 0 ∧ win0_2.index t (3 : Fin 4) = 0)
    ∧ (win0_4.index t (0 : Fin 4) = win0_3.index t (0 : Fin 4) ∧ win0_4.index t (1 : Fin 4) = win0_3.index t (1 : Fin 4)
      ∧ win0_4.index t (2 : Fin 4) = 0 ∧ win0_4.index t (3 : Fin 4) = 0)
    ∧ win0_3.index t (2 : Fin 4) = 0 ∧ win0_3.index t (3 : Fin 4) = 0
    ∧ win0_3.index t (0 : Fin 4) < 8 ∧ win0_3.index t (1 : Fin 4) < 16 :=
  (by decide +kernel : ∀ t : Fin grid0.N, _)

/-- Every head is some point's. -/
theorem idx_onto : ∀ (b : Fin 8) (h : Fin 16), ∃ t : Fin cfg0.N,
    win0_3.index t (0 : Fin 4) = b.val ∧ win0_3.index t (1 : Fin 4) = h.val :=
  (by decide +kernel : ∀ (b : Fin 8) (h : Fin 16), ∃ t : Fin grid0.N,
    win0_3.index t (0 : Fin 4) = b.val ∧ win0_3.index t (1 : Fin 4) = h.val)

/-- The head of point `t`: its first coordinate. -/
def pb (t : Fin cfg0.N) : Fin 8 := ⟨win0_3.index t (0 : Fin 4), (idx_facts t).2.2.2.2.2.2.1⟩
/-- Its second coordinate. -/
def ph (t : Fin cfg0.N) : Fin 16 := ⟨win0_3.index t (1 : Fin 4), (idx_facts t).2.2.2.2.2.2.2⟩

/-! ## The input blocks are the head's matrices -/

/-- The query block at point `t` is the query matrix of the point's head: entry (0, 0, r, d) of the block sits at
    (b, h, r, d) of the array. -/
theorem iblk0_head (c : Dev nD) (t : Fin cfg0.N) :
    blk (iblk m c 0 t) = head (V m c main_arg0) (pb t) (ph t) := by
  obtain ⟨⟨a0, a1, a2, a3⟩, -⟩ := idx_facts t
  funext r d
  unfold blk head iblk
  rw [View.read_apply]
  show V m c main_arg0 _ = V m c main_arg0 _
  congr 1
  funext a
  apply Fin.ext
  match a with
  | ⟨0, _⟩ => show win0_0.index t (0 : Fin 4) * 1 + 1 * 0 = win0_3.index t (0 : Fin 4); omega
  | ⟨1, _⟩ => show win0_0.index t (1 : Fin 4) * 1 + 1 * 0 = win0_3.index t (1 : Fin 4); omega
  | ⟨2, _⟩ => show win0_0.index t (2 : Fin 4) * 1024 + 1 * r.val = r.val; omega
  | ⟨3, _⟩ => show win0_0.index t (3 : Fin 4) * 64 + 1 * d.val = d.val; omega

/-- The same for the key block. -/
theorem iblk1_head (c : Dev nD) (t : Fin cfg0.N) :
    blk (iblk m c 1 t) = head (V m c main_arg1) (pb t) (ph t) := by
  obtain ⟨-, ⟨a0, a1, a2, a3⟩, -⟩ := idx_facts t
  funext r d
  unfold blk head iblk
  rw [View.read_apply]
  show V m c main_arg1 _ = V m c main_arg1 _
  congr 1
  funext a
  apply Fin.ext
  match a with
  | ⟨0, _⟩ => show win0_1.index t (0 : Fin 4) * 1 + 1 * 0 = win0_3.index t (0 : Fin 4); omega
  | ⟨1, _⟩ => show win0_1.index t (1 : Fin 4) * 1 + 1 * 0 = win0_3.index t (1 : Fin 4); omega
  | ⟨2, _⟩ => show win0_1.index t (2 : Fin 4) * 1024 + 1 * r.val = r.val; omega
  | ⟨3, _⟩ => show win0_1.index t (3 : Fin 4) * 64 + 1 * d.val = d.val; omega

/-- The same for the value block. -/
theorem iblk2_head (c : Dev nD) (t : Fin cfg0.N) :
    blk (iblk m c 2 t) = head (V m c main_arg2) (pb t) (ph t) := by
  obtain ⟨-, -, ⟨a0, a1, a2, a3⟩, -⟩ := idx_facts t
  funext r d
  unfold blk head iblk
  rw [View.read_apply]
  show V m c main_arg2 _ = V m c main_arg2 _
  congr 1
  funext a
  apply Fin.ext
  match a with
  | ⟨0, _⟩ => show win0_2.index t (0 : Fin 4) * 1 + 1 * 0 = win0_3.index t (0 : Fin 4); omega
  | ⟨1, _⟩ => show win0_2.index t (1 : Fin 4) * 1 + 1 * 0 = win0_3.index t (1 : Fin 4); omega
  | ⟨2, _⟩ => show win0_2.index t (2 : Fin 4) * 1024 + 1 * r.val = r.val; omega
  | ⟨3, _⟩ => show win0_2.index t (3 : Fin 4) * 64 + 1 * d.val = d.val; omega

/-! ## What the body leaves in the two output buffers, at an entry -/

/-- The weights' buffer at (·, ·, q, k): the softmax of the blocks' scores. -/
theorem out4_apply (X0 X1 X2 : Vec Ideal S1x1x1024x64 .f32) (y : S1x1x1024x1024.Idx) :
    out0_4 X0 X1 X2 y
      = weight (blk X0) (blk X1) (⟨(y 2).val, (y 2).isLt⟩ : Fin 1024) (⟨(y 3).val, (y 3).isLt⟩ : Fin 1024) := by
  unfold out0_4
  simp only [View.ld_unit_zero (S := S1x1x1024x64) hz4]
  rw [Value.canon4_eq]
  have e : Value.ix4_0 y = ix2 (⟨(y 2).val, (y 2).isLt⟩ : Fin 1024) (⟨(y 3).val, (y 3).isLt⟩ : Fin 1024) :=
    funext fun a => Fin.ext (by match a with | ⟨0, _⟩ => rfl | ⟨1, _⟩ => rfl)
  show k0_pay2 X0 X1 (Value.ix4_0 y) = _
  rw [e]
  exact pay2_apply X0 X1 _ _

/-- The outputs' buffer at (·, ·, q, d): the weights against the value block. -/
theorem out3_apply (X0 X1 X2 : Vec Ideal S1x1x1024x64 .f32) (y : S1x1x1024x64.Idx) :
    out0_3 X0 X1 X2 y
      = out (blk X0) (blk X1) (blk X2) (⟨(y 2).val, (y 2).isLt⟩ : Fin 1024) (⟨(y 3).val, (y 3).isLt⟩ : Fin 64) := by
  unfold out0_3
  simp only [View.ld_unit_zero (S := S1x1x1024x64) hz4]
  rw [Value.canon3_eq]
  have e : Value.ix3_0 y = ix2 (⟨(y 2).val, (y 2).isLt⟩ : Fin 1024) (⟨(y 3).val, (y 3).isLt⟩ : Fin 64) :=
    funext fun a => Fin.ext (by match a with | ⟨0, _⟩ => rfl | ⟨1, _⟩ => rfl)
  show k0_pay4 X0 X1 X2 (Value.ix3_0 y) = _
  rw [e]
  exact pay4_apply X0 X1 X2 _ _

/-! ## What a point writes back -/

/-- WHAT POINT `t` WRITES BACK to the weights is block `t` of the weights of every head. -/
theorem flushed4_eq (c : Dev nD) (t : Fin cfg0.N) :
    (dats m 0 c).flushed 4 t
      = ((cfg0.win 4).blk t).view.read (Elt Ideal) (weights (V m c main_arg0) (V m c main_arg1)) := by
  obtain ⟨-, -, -, ⟨e0, e1, e2, e3⟩, -⟩ := idx_facts t
  rw [Value.flushed4]
  funext y
  have hy0 : (y 0).val < 1 := (y 0).isLt
  have hy1 : (y 1).val < 1 := (y 1).isLt
  have hy2 : (y 2).val < 1024 := (y 2).isLt
  have hy3 : (y 3).val < 1024 := (y 3).isLt
  refine (out4_apply (iblk m c 0 t) (iblk m c 1 t) (iblk m c 2 t) ((cfg0.win 4).xinj (grid0.coords t) y)).trans ?_
  rw [View.read_apply]
  have hemb : ((cfg0.win 4).blk t).view.emb y
      = ix4 (pb t) (ph t) (⟨(y 2).val, hy2⟩ : Fin 1024) (⟨(y 3).val, hy3⟩ : Fin 1024) := by
    funext a
    apply Fin.ext
    match a with
    | ⟨0, _⟩ => show win0_4.index t (0 : Fin 4) * 1 + 1 * (y 0).val = win0_3.index t (0 : Fin 4); omega
    | ⟨1, _⟩ => show win0_4.index t (1 : Fin 4) * 1 + 1 * (y 1).val = win0_3.index t (1 : Fin 4); omega
    | ⟨2, _⟩ => show win0_4.index t (2 : Fin 4) * 1024 + 1 * (y 2).val = (y 2).val; omega
    | ⟨3, _⟩ => show win0_4.index t (3 : Fin 4) * 1024 + 1 * (y 3).val = (y 3).val; omega
  rw [hemb, iblk0_head m c t, iblk1_head m c t]
  rfl

/-- WHAT POINT `t` WRITES BACK to the outputs is block `t` of the outputs of every head. -/
theorem flushed3_eq (c : Dev nD) (t : Fin cfg0.N) :
    (dats m 0 c).flushed 3 t
      = ((cfg0.win 3).blk t).view.read (Elt Ideal)
          (outputs (V m c main_arg0) (V m c main_arg1) (V m c main_arg2)) := by
  obtain ⟨-, -, -, -, e2, e3, -⟩ := idx_facts t
  rw [Value.flushed3]
  funext y
  have hy0 : (y 0).val < 1 := (y 0).isLt
  have hy1 : (y 1).val < 1 := (y 1).isLt
  have hy2 : (y 2).val < 1024 := (y 2).isLt
  have hy3 : (y 3).val < 64 := (y 3).isLt
  refine (out3_apply (iblk m c 0 t) (iblk m c 1 t) (iblk m c 2 t) ((cfg0.win 3).xinj (grid0.coords t) y)).trans ?_
  rw [View.read_apply]
  have hemb : ((cfg0.win 3).blk t).view.emb y
      = ix4 (pb t) (ph t) (⟨(y 2).val, hy2⟩ : Fin 1024) (⟨(y 3).val, hy3⟩ : Fin 64) := by
    funext a
    apply Fin.ext
    match a with
    | ⟨0, _⟩ => show win0_3.index t (0 : Fin 4) * 1 + 1 * (y 0).val = win0_3.index t (0 : Fin 4); omega
    | ⟨1, _⟩ => show win0_3.index t (1 : Fin 4) * 1 + 1 * (y 1).val = win0_3.index t (1 : Fin 4); omega
    | ⟨2, _⟩ => show win0_3.index t (2 : Fin 4) * 1024 + 1 * (y 2).val = (y 2).val; omega
    | ⟨3, _⟩ => show win0_3.index t (3 : Fin 4) * 64 + 1 * (y 3).val = (y 3).val; omega
  rw [hemb, iblk0_head m c t, iblk1_head m c t, iblk2_head m c t]
  rfl

/-! ## The cover -/

/-- An index of the outputs is in point `t`'s block iff each coordinate is in the block's range on its axis. -/
theorem mem_blk3 (t : Fin cfg0.N) (i : S8x16x1024x64.Idx) :
    i ∈ ((cfg0.win 3).blk t).view.set ↔ ∀ a : Fin 4, win0_3.index t a * S1x1x1024x64.size a ≤ (i a).val
      ∧ (i a).val < win0_3.index t a * S1x1x1024x64.size a + S1x1x1024x64.size a := by
  show i ∈ ((View.whole main_v0_0).slice (win0_3.rect t)).set ↔ _
  rw [View.set_slice_whole, Rect.mem_set_unit]
  exact Iff.rfl

/-- The same for the weights. -/
theorem mem_blk4 (t : Fin cfg0.N) (i : S8x16x1024x1024.Idx) :
    i ∈ ((cfg0.win 4).blk t).view.set ↔ ∀ a : Fin 4, win0_4.index t a * S1x1x1024x1024.size a ≤ (i a).val
      ∧ (i a).val < win0_4.index t a * S1x1x1024x1024.size a + S1x1x1024x1024.size a := by
  show i ∈ ((View.whole main_v0_1).slice (win0_4.rect t)).set ↔ _
  rw [View.set_slice_whole, Rect.mem_set_unit]
  exact Iff.rfl

/-- Every index of the outputs is in the block of its head's point. -/
theorem cover3 (i : S8x16x1024x64.Idx) :
    ∃ t : Fin cfg0.N, (cfg0.win 3).flush t = true ∧ i ∈ ((cfg0.win 3).blk t).view.set := by
  have hi0 : (i 0).val < 8 := (i 0).isLt
  have hi1 : (i 1).val < 16 := (i 1).isLt
  have hi2 : (i 2).val < 1024 := (i 2).isLt
  have hi3 : (i 3).val < 64 := (i 3).isLt
  obtain ⟨t, q0, q1⟩ := idx_onto ⟨(i 0).val, hi0⟩ ⟨(i 1).val, hi1⟩
  obtain ⟨-, -, -, -, e2, e3, -⟩ := idx_facts t
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1
              have q0' : win0_3.index t (0 : Fin 4) = (i 0).val := q0
              omega
  | ⟨1, _⟩ => show win0_3.index t (1 : Fin 4) * 1 ≤ (i 1).val ∧ (i 1).val < win0_3.index t (1 : Fin 4) * 1 + 1
              have q1' : win0_3.index t (1 : Fin 4) = (i 1).val := q1
              omega
  | ⟨2, _⟩ => show win0_3.index t (2 : Fin 4) * 1024 ≤ (i 2).val ∧ (i 2).val < win0_3.index t (2 : Fin 4) * 1024 + 1024; omega
  | ⟨3, _⟩ => show win0_3.index t (3 : Fin 4) * 64 ≤ (i 3).val ∧ (i 3).val < win0_3.index t (3 : Fin 4) * 64 + 64; omega

/-- Every index of the weights is in the block of its head's point. -/
theorem cover4 (i : S8x16x1024x1024.Idx) :
    ∃ t : Fin cfg0.N, (cfg0.win 4).flush t = true ∧ i ∈ ((cfg0.win 4).blk t).view.set := by
  have hi0 : (i 0).val < 8 := (i 0).isLt
  have hi1 : (i 1).val < 16 := (i 1).isLt
  have hi2 : (i 2).val < 1024 := (i 2).isLt
  have hi3 : (i 3).val < 1024 := (i 3).isLt
  obtain ⟨t, q0, q1⟩ := idx_onto ⟨(i 0).val, hi0⟩ ⟨(i 1).val, hi1⟩
  obtain ⟨-, -, -, ⟨e0, e1, e2, e3⟩, -⟩ := idx_facts t
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1
              have q0' : win0_3.index t (0 : Fin 4) = (i 0).val := q0
              omega
  | ⟨1, _⟩ => show win0_4.index t (1 : Fin 4) * 1 ≤ (i 1).val ∧ (i 1).val < win0_4.index t (1 : Fin 4) * 1 + 1
              have q1' : win0_3.index t (1 : Fin 4) = (i 1).val := q1
              omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 1024 ≤ (i 3).val ∧ (i 3).val < win0_4.index t (3 : Fin 4) * 1024 + 1024; omega

/-! ## The arrays after the run, and the run -/

/-- The outputs' array after the run: the blocks written back cover it. -/
theorem final3 (c : Dev nD) :
    (dats m 0 c).arrAt 3 cfg0.N = outputs (V m c main_arg0) (V m c main_arg1) (V m c main_arg2) :=
  (dats m 0 c).arrAt_eq_of_cover 3 (outputs (V m c main_arg0) (V m c main_arg1) (V m c main_arg2))
    (fun t _ => flushed3_eq m c t) cover3

/-- The weights' array after the run. -/
theorem final4 (c : Dev nD) :
    (dats m 0 c).arrAt 4 cfg0.N = weights (V m c main_arg0) (V m c main_arg1) :=
  (dats m 0 c).arrAt_eq_of_cover 4 (weights (V m c main_arg0) (V m c main_arg1))
    (fun t _ => flushed4_eq m c t) cover4

/-- THE KERNEL'S RUN, read: the first result is the outputs of every head, the second the weights, the arguments are
    unchanged. -/
theorem run : θ_run defs (onTc (τ := τ) (main (F := Ideal))) ⟨m, fun _ => 0, ρ⟩ fun r => ∀ c : Dev nD,
      r.2.mem ((c : Thread nD τ).loc main_v0_0)
        = outputs (m ((c : Thread nD τ).loc main_arg0)) (m ((c : Thread nD τ).loc main_arg1)) (m ((c : Thread nD τ).loc main_arg2))
      ∧ r.2.mem ((c : Thread nD τ).loc main_v0_1)
        = weights (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.KernelIdeal.ArrayValue

end
-- ==== Proof.ReferenceIsAttention.lean ====
/-
  The reference's two results, read index by index, are the attention of each head.

  The reference scales the queries, contracts them with the keys over the 64 columns (one sum per entry of the
  [8, 16, 1024, 1024] scores), takes each row's maximum from -∞ and once more against -∞, subtracts it, exponentiates,
  sums each row from 0, divides, and contracts the weights with the values over the 1024 keys. Stage by stage, at the
  coordinates (b, h, q, k) or (b, h, q, d), that is `score`, `rowMax`, `expo`, `denom`, `weight` and `out` of head (b, h).
  The row maximum is the one stage read here by hand: a reduce with a commutative, associative body over one axis is the
  fold over that axis's coordinates, and the index (b, h, q) with the coordinate k put back is (b, h, q, k).
-/
import proofs.«124840_j42288247996695_1_alg».proof.Proof.Gen.ReferenceIdeal.Read
import proofs.«124840_j42288247996695_1_alg».proof.Proof.AttentionSpec
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Attention

variable (Q K V : (⟨S8x16x1024x64, .f32⟩ : BufTy).Contents (Elt Ideal))

/-- The scores: the scaled query row q of head (b, h) against its key row k. -/
theorem ref_score (b : Fin 8) (h : Fin 16) (q k : Fin 1024) :
    val_main_v2 (F := Ideal) Q K (ix4 b h q k) = score (head Q b h) (head K b h) q k := by
  rw [val_main_v2_apply]
  unfold score head
  refine Finset.sum_congr rfl fun d _ => ?_
  have el : lidx_main_v2 (ix4 b h q k) d = ix4 b h q d := funext fun a => Fin.ext (by
    match a with | ⟨0, _⟩ => rfl | ⟨1, _⟩ => rfl | ⟨2, _⟩ => rfl | ⟨3, _⟩ => rfl)
  have er : ridx_main_v2 (ix4 b h q k) d = ix4 b h k d := funext fun a => Fin.ext (by
    match a with | ⟨0, _⟩ => rfl | ⟨1, _⟩ => rfl | ⟨2, _⟩ => rfl | ⟨3, _⟩ => rfl)
  rw [el, er, val_main_v1_apply, val_main_v0_apply, val_main_cst_apply]
  rfl

/-- The reduce over the keys: the fold of max from -∞ over row q's scores. -/
theorem ref_fold (b : Fin 8) (h : Fin 16) (q : Fin 1024) :
    val_main_v3 (F := Ideal) Q K (ix3 b h q)
      = (Finset.univ : Finset (Fin 1024)).fold max negInf (score (head Q b h) (head K b h) q) := by
  unfold val_main_v3
  have hred : S8x16x1024x1024.Reduces [3] S8x16x1024 := by decide
  rw [Host.reduce_eq_fold_single FloatOps.maximumf _ _ reducesTo_S8x16x1024x1024_S8x16x1024_d3 hred h_S_]
  have hf : (val_main_v2 (F := Ideal) Q K ∘ hred.lift (ix3 b h q))
      = score (head Q b h) (head K b h) q := funext fun k => by
    show val_main_v2 (F := Ideal) Q K (hred.lift (ix3 b h q) k) = _
    have e : hred.lift (ix3 b h q) k = ix4 b h q k := funext fun a => Fin.ext (by
      match a with | ⟨0, _⟩ => rfl | ⟨1, _⟩ => rfl | ⟨2, _⟩ => rfl | ⟨3, _⟩ => rfl)
    rw [e]
    exact ref_score Q K b h q k
  rw [hf]
  rfl

/-- Once more against -∞: the row's maximum. -/
theorem ref_rowMax (b : Fin 8) (h : Fin 16) (q : Fin 1024) :
    val_main_v5 (F := Ideal) Q K (ix3 b h q) = rowMaxOf (score (head Q b h) (head K b h) q) := by
  rw [val_main_v5_apply, val_main_v4_apply, val_main_cst_1_apply, ref_fold]
  rfl

/-- The exponential of a score less its row's maximum. -/
theorem ref_expo (b : Fin 8) (h : Fin 16) (q k : Fin 1024) :
    val_main_v9 (F := Ideal) Q K (ix4 b h q k) = expoOf (score (head Q b h) (head K b h) q) k := by
  have e : idx_main_v6 (idx_main_v7 (ix4 b h q k)) = ix3 b h q := funext fun a => Fin.ext (by
    match a with | ⟨0, _⟩ => rfl | ⟨1, _⟩ => rfl | ⟨2, _⟩ => rfl)
  rw [val_main_v9_apply, val_main_v8_apply, ref_score, val_main_v7_apply, val_main_v6_apply, e, ref_rowMax]
  rfl

/-- The row's sum, from 0. -/
theorem ref_denom (b : Fin 8) (h : Fin 16) (q : Fin 1024) :
    val_main_v10 (F := Ideal) Q K (ix3 b h q) = denomOf (score (head Q b h) (head K b h) q) := by
  rw [val_main_v10_apply, val_main_cst_2_apply]
  show Ideal.ofBits .f32 0x00000000#32 + _ = _
  rw [Ideal.ofBits_zero_f32, zero_add]
  unfold denomOf
  refine Finset.sum_congr rfl fun k _ => ?_
  have e : idx_main_v10 (ix3 b h q) k = ix4 b h q k := funext fun a => Fin.ext (by
    match a with | ⟨0, _⟩ => rfl | ⟨1, _⟩ => rfl | ⟨2, _⟩ => rfl | ⟨3, _⟩ => rfl)
  rw [e, ref_expo]

/-- The quotient: the softmax of row q at column k. -/
theorem ref_weight (b : Fin 8) (h : Fin 16) (q k : Fin 1024) :
    val_main_v13 (F := Ideal) Q K (ix4 b h q k) = weight (head Q b h) (head K b h) q k := by
  have e : idx_main_v11 (idx_main_v12 (ix4 b h q k)) = ix3 b h q := funext fun a => Fin.ext (by
    match a with | ⟨0, _⟩ => rfl | ⟨1, _⟩ => rfl | ⟨2, _⟩ => rfl)
  rw [val_main_v13_apply, ref_expo, val_main_v12_apply, val_main_v11_apply, e, ref_denom]
  rfl

/-- The weights against the values. -/
theorem ref_out (b : Fin 8) (h : Fin 16) (q : Fin 1024) (d : Fin 64) :
    val_main_v14 (F := Ideal) Q K V (ix4 b h q d) = out (head Q b h) (head K b h) (head V b h) q d := by
  rw [val_main_v14_apply]
  unfold out
  refine Finset.sum_congr rfl fun k _ => ?_
  have el : lidx_main_v14 (ix4 b h q d) k = ix4 b h q k := funext fun a => Fin.ext (by
    match a with | ⟨0, _⟩ => rfl | ⟨1, _⟩ => rfl | ⟨2, _⟩ => rfl | ⟨3, _⟩ => rfl)
  have er : ridx_main_v14 (ix4 b h q d) k = ix4 b h k d := funext fun a => Fin.ext (by
    match a with | ⟨0, _⟩ => rfl | ⟨1, _⟩ => rfl | ⟨2, _⟩ => rfl | ⟨3, _⟩ => rfl)
  rw [el, er, ref_weight]
  rfl

/-- The reference's second result is the weights of every head. -/
theorem weights_eq : val_main_v13 (F := Ideal) Q K = weights Q K := funext fun i => by
  obtain ⟨b, h, q, k, rfl⟩ : ∃ (b : Fin 8) (h : Fin 16) (q k : Fin 1024), i = ix4 b h q k :=
    ⟨i 0, i 1, i 2, i 3, eq_ix4 i⟩
  exact ref_weight Q K b h q k

/-- The reference's first result is the outputs of every head. -/
theorem outputs_eq : val_main_v14 (F := Ideal) Q K V = outputs Q K V := funext fun i => by
  obtain ⟨b, h, q, d, rfl⟩ : ∃ (b : Fin 8) (h : Fin 16) (q : Fin 1024) (d : Fin 64), i = ix4 b h q d :=
    ⟨i 0, i 1, i 2, i 3, eq_ix4 i⟩
  exact ref_out Q K V b h q d

end Cert.ReferenceIdeal.RefValue

end
-- ==== Proof.lean ====
/-
  Scaled dot-product attention with its weights returned, on [8, 16, 1024, 64] queries, keys and values: a kernel that
  computes one head per grid point against the two-einsum reference.

  For each of the 128 heads both programs scale the queries by 1/8, contract them with the keys over the 64 columns,
  take the softmax of every row of the 1024 × 1024 scores (the row's maximum from -∞, the exponentials of the
  differences, their sum, the quotient), return these weights, and contract them with the values over the 1024 keys.
  On the extended reals a change of float format is the identity, a matrix product into a zero accumulator and a
  contraction are the same sum over the contracted coordinate, and a lane reduction and a reduce over the last axis
  run over the same 1024 entries. The two programs apply the same operations to the same entries in the same order, so
  their results agree entry by entry with no algebraic law beyond these readings, and the finiteness of the inputs is
  never used.

  The pieces: `Proof/AttentionSpec.lean` states the attention of one head and the two arrays by head;
  `Proof/ReferenceIsAttention.lean` reads the reference's run stage by stage; `Proof/SoftmaxRows.lean` reads the
  kernel's softmax chain on a block of scores; `Proof/KernelBlock.lean` reads the body's two stored values at an entry;
  `Proof/KernelArray.lean` goes from the blocks the grid points write back to the whole arrays. Idealizing the
  kernel rewrote none of its operations, so the idealized kernel is the kernel's own text read on the extended reals,
  and that conjunct is trivial.
-/
import proofs.«124840_j42288247996695_1_alg».proof.Defs
import proofs.«124840_j42288247996695_1_alg».proof.Proof.Gen.Kernel
import proofs.«124840_j42288247996695_1_alg».proof.Proof.Gen.Kernel.Skeleton
import proofs.«124840_j42288247996695_1_alg».proof.Proof.Gen.Kernel.Launch
import proofs.«124840_j42288247996695_1_alg».proof.Proof.Gen.Kernel.Points
import proofs.«124840_j42288247996695_1_alg».proof.Proof.Gen.Kernel.Frame
import proofs.«124840_j42288247996695_1_alg».proof.Proof.Gen.KernelIdeal
import proofs.«124840_j42288247996695_1_alg».proof.Proof.Gen.KernelIdeal.Skeleton
import proofs.«124840_j42288247996695_1_alg».proof.Proof.Gen.KernelIdeal.Launch
import proofs.«124840_j42288247996695_1_alg».proof.Proof.Gen.KernelIdeal.Points
import proofs.«124840_j42288247996695_1_alg».proof.Proof.Gen.KernelIdeal.Frame
import proofs.«124840_j42288247996695_1_alg».proof.Proof.Gen.ReferenceIdeal
import proofs.«124840_j42288247996695_1_alg».proof.Proof.Gen.Pre_finite_inputs
import proofs.«124840_j42288247996695_1_alg».proof.Proof.Gen.KernelIdeal.Value
import proofs.«124840_j42288247996695_1_alg».proof.Proof.Gen.ReferenceIdeal.Run
import proofs.«124840_j42288247996695_1_alg».proof.Proof.Gen.ReferenceIdeal.Read
import proofs.«124840_j42288247996695_1_alg».proof.Proof.KernelArray
import proofs.«124840_j42288247996695_1_alg».proof.Proof.ReferenceIsAttention
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the two results dropped. -/
theorem frame_ri : Cert.frame_ReferenceIdeal := fun m ρ _ =>
  (θ_run Cert.ReferenceIdeal.defs _ _).mono (fun _ h c => (h c).2.2)
    (Cert.ReferenceIdeal.Value.run (F := Ideal) m ρ)

/-- From arguments that agree, both programs end with the outputs and the weights of every head. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · refine (Cert.ReferenceIdeal.Read.val_main_v14_eq _ _ _).trans ?_
    rw [Cert.ReferenceIdeal.RefValue.outputs_eq, (hagree c).1, (hagree c).2.1, (hagree c).2.2]
  · refine (Cert.ReferenceIdeal.Read.val_main_v13_eq _ _).trans ?_
    rw [Cert.ReferenceIdeal.RefValue.weights_eq, (hagree c).1, (hagree c).2.1]

/-- The five conjuncts, under the witnesses of the programs' stated side conditions. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
